-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S4096x512 : Shape := ⟨2, ![4096, 512]⟩
abbrev S4096 : Shape := ⟨1, ![4096]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x512 .f32) (main_arg1 : FVec F S4096x512 .f32) (main_arg2 : FVec F S4096x512 .f32) (main_arg3 : FVec F S4096 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x512 : Shape := ⟨3, ![8, 2048, 512]⟩
abbrev S4096x512 : Shape := ⟨2, ![4096, 512]⟩
abbrev S4096 : Shape := ⟨1, ![4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S512x512 : Shape := ⟨2, ![512, 512]⟩
abbrev S512x1 : Shape := ⟨2, ![512, 1]⟩
abbrev S1x256 : Shape := ⟨2, ![1, 256]⟩
abbrev S256x512 : Shape := ⟨2, ![256, 512]⟩
abbrev S512x256 : Shape := ⟨2, ![512, 256]⟩
abbrev S512 : Shape := ⟨1, ![512]⟩

abbrev nBuf : Space → Nat
  | .hbm => 24
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S4096x512, .bf16⟩
  | .hbm, ⟨22, _⟩ => ⟨S16384x512, .f32⟩
  | .hbm, ⟨23, _⟩ => ⟨S8x2048x512, .f32⟩
  | .local _ .vmem, ⟨0, _⟩ => ⟨S512x512, .f32⟩
  | .local _ .vmem, ⟨1, _⟩ => ⟨S512x512, .f32⟩
  | .local _ .vmem, ⟨2, _⟩ => ⟨S4096x512, .f32⟩
  | .local _ .vmem, ⟨3, _⟩ => ⟨S4096x512, .bf16⟩
  | .local _ .vmem, ⟨4, _⟩ => ⟨S512x1, .f32⟩
  | .local _ .vmem, ⟨5, _⟩ => ⟨S512x1, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x2048x512_S16384x512 : S8x2048x512.ShapeCasts S16384x512
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  shapeCasts_S4096_S1x4096 : S4096.ShapeCasts S1x4096
  bcast_S_S4096 : S_.BroadcastsInDim S4096 (![] : Fin 0 → Fin S4096.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  reduces_S512x256_S512 : S512x256.Reduces [1] S512
  shapeCasts_S512_S512x1 : S512.ShapeCasts S512x1
  broadcasts_S512x1_S512x512 : S512x1.Broadcasts S512x512
  shapeCasts_S16384x512_S8x2048x512 : S16384x512.ShapeCasts S8x2048x512
  dot_S512x512_S256x512_S512x256_1_1_0_0_n_n_wf : DotDims.WF S512x512 S256x512 S512x256 [1] [1] [0] [0] [] []
  dot_S512x256_S256x512_S512x512_1_0_0_1_n_n_wf : DotDims.WF S512x256 S256x512 S512x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S4096x512 : Shape := ⟨2, ![4096, 512]⟩
abbrev S4096 : Shape := ⟨1, ![4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S512x4096 : Shape := ⟨2, ![512, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S512x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x4096, .f32⟩
  | .hbm, ⟨42, _⟩ => ⟨S16384x4096, .f32⟩
  | .hbm, ⟨43, _⟩ => ⟨S16384x512, .f32⟩
  | .hbm, ⟨44, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  shapeCasts_S8x2048x512_S16384x512 : S8x2048x512.ShapeCasts S16384x512
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x512_S512x4096_1_0 : S4096x512.Transposes [1, 0] S512x4096
  bcast_S_S16384x4096 : S_.BroadcastsInDim S16384x4096 (![] : Fin 0 → Fin S16384x4096.rank)
  bcast_S_S4096 : S_.BroadcastsInDim S4096 (![] : Fin 0 → Fin S4096.rank)
  reducesTo_S16384x4096_S16384_d1 : S16384x4096.ReducesTo [1] S16384
  bcast_S_S16384x1 : S_.BroadcastsInDim S16384x1 (![] : Fin 0 → Fin S16384x1.rank)
  shapeCasts_S16384x512_S8x2048x512 : S16384x512.ShapeCasts S8x2048x512
  dot_S16384x512_S512x4096_S16384x4096_1_0_0_1_n_n_wf : DotDims.WF S16384x512 S512x4096 S16384x4096 [1] [0] [0] [1] [] []
  dot_S16384x4096_S4096x512_S16384x512_1_0_0_1_n_n_wf : DotDims.WF S16384x4096 S4096x512 S16384x512 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.GeoSpec.lean ====
/-
  The mathematics of the radial-basis attention, free of any program text.

  For flattened queries X (16384 x 512), a codebook of positions P and values V (4096 x 512 each) and one
  temperature T per codebook entry, the weight of entry n for row R is
      w R n = exp (-(dist R n) / (|T n| + 0.1)),   dist R n = sqrt (max (|X_R|^2 + |P_n|^2 - 2 <X_R, P_n>) 0),
  and the result is the weighted mean  out R d = sum_n (w R n / (sum_n' w R n' + eps)) * V n d.

  Two arrangements of this value are stated here over the extended reals. The tiled one ("K") walks the
  codebook in sixteen tiles of 256 entries, carries the running numerator and the running denominator from
  tile to tile starting at zero, multiplies the distance by the reciprocal -1 / (|T n| + 0.1), and divides
  ONCE at the end. The plain one ("R") divides the negated distance by |T n| + 0.1, normalises every weight
  and then sums over the whole codebook. When every entry of X, P, V and T is a real number the two agree
  ('outK_eq_outR'): re-association of a sum of reals, x * (-1 / c) = -x / c for a real c that is not 0, and
  (sum_n a_n) / D = sum_n (a_n / D) for a real D that is not 0 (D is a sum of exponentials plus a positive
  constant). The last law is the one that fails at the infinities, which is why finiteness is assumed.
-/
import Idealize.ShloMosaic.PureOps.Ideal
import Idealize.ShloMosaic.PureOps.Ideal.Laws
import Idealize.ShloMosaic.Lib.ValueIdx

noncomputable section

namespace Cert.Geo

open Idealize.ShloMosaic Idealize.ShloMosaic.ValueIdx

/-! ## The five constants, as the reals their patterns denote -/

theorem fz_eq : Ideal.ofBits .f32 0x00000000#32 = 0 := Ideal.ofBits_zero_f32

theorem ftwo_eq : Ideal.ofBits .f32 0x40000000#32 = ((2 : ℝ) : EReal) := by
  simp [Ideal.ofBits, Ideal.ieee, -EReal.coe_mul]; norm_num

theorem fnegOne_eq : Ideal.ofBits .f32 0xBF800000#32 = ((-1 : ℝ) : EReal) := by
  simp [Ideal.ofBits, Ideal.ieee, -EReal.coe_mul]; norm_num

/-- The pattern of f32 0.1 denotes 13421773 / 2^27. -/
theorem ftenth_eq : Ideal.ofBits .f32 0x3DCCCCCD#32 = ((13421773 / 134217728 : ℝ) : EReal) := by
  simp [Ideal.ofBits, Ideal.ieee, -EReal.coe_mul]; norm_num

/-- The pattern of f32 1e-8 denotes 11258999 / 2^50. -/
theorem feps_eq : Ideal.ofBits .f32 0x322BCC77#32 = ((11258999 / 1125899906842624 : ℝ) : EReal) := by
  simp [Ideal.ofBits, Ideal.ieee, -EReal.coe_mul]; norm_num

theorem fz_coe : Ideal.ofBits .f32 0x00000000#32 = ((0 : ℝ) : EReal) := by rw [fz_eq, EReal.coe_zero]

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, taken in the extended reals. -/
theorem coe_max (a b : ℝ) : ((max a b : ℝ) : EReal) = max (a : EReal) (b : EReal) :=
  EReal.coe_strictMono.monotone.map_max

abbrev Arr2 (a b : ℕ) : Type := (⟨2, ![a, b]⟩ : Shape).Idx → EReal
abbrev Arr1 (a : ℕ) : Type := (⟨1, ![a]⟩ : Shape).Idx → EReal

/-! ## The value, in its two arrangements -/

section Spec

variable (X : Arr2 16384 512) (P V : Arr2 4096 512) (T : Arr1 4096)

/-- |X_R|^2, summed from the zero the sum starts at. -/
def xsq (R : Fin 16384) : EReal := Ideal.ofBits .f32 0x00000000#32 + ∑ d : Fin 512, X (ix2 R d) * X (ix2 R d)
/-- |P_n|^2. -/
def psq (n : Fin 4096) : EReal := Ideal.ofBits .f32 0x00000000#32 + ∑ d : Fin 512, P (ix2 n d) * P (ix2 n d)
/-- The inner product of row R of X and row n of P. -/
def dotp (R : Fin 16384) (n : Fin 4096) : EReal := ∑ d : Fin 512, X (ix2 R d) * P (ix2 n d)
/-- |T n| + 0.1. -/
def den (n : Fin 4096) : EReal := max (T (ix1 n)) (-T (ix1 n)) + Ideal.ofBits .f32 0x3DCCCCCD#32
/-- The clamped Euclidean distance of row R of X to row n of P. -/
def dist (R : Fin 16384) (n : Fin 4096) : EReal :=
  Ideal.sqrt (max (xsq X R + psq P n - Ideal.ofBits .f32 0x40000000#32 * dotp X P R n) (Ideal.ofBits .f32 0x00000000#32))
/-- The weight as the tiled arrangement forms it: the distance TIMES -1 / (|T n| + 0.1). -/
def wK (R : Fin 16384) (n : Fin 4096) : EReal :=
  Ideal.exp (dist X P R n * Ideal.div (Ideal.ofBits .f32 0xBF800000#32) (den T n))
/-- The weight as the plain arrangement forms it: the negated distance DIVIDED BY |T n| + 0.1. -/
def wR (R : Fin 16384) (n : Fin 4096) : EReal := Ideal.exp (Ideal.div (-dist X P R n) (den T n))

/-- The tiled weight at a codebook position given as a natural number (0 off the codebook). -/
def wKn (R : Fin 16384) (n : ℕ) : EReal := if h : n < 4096 then wK X P T R ⟨n, h⟩ else 0
/-- V at a row given as a natural number (0 off the codebook). -/
def vn (n : ℕ) (d : Fin 512) : EReal := if h : n < 4096 then V (ix2 ⟨n, h⟩ d) else 0

/-- The running numerator after j tiles. -/
def accK (R : Fin 16384) (d : Fin 512) : ℕ → EReal
  | 0 => Ideal.ofBits .f32 0x00000000#32
  | j + 1 => accK R d j + ∑ q : Fin 256, wKn X P T R (256 * j + q.val) * vn V (256 * j + q.val) d

/-- The running denominator after j tiles. -/
def sumK (R : Fin 16384) : ℕ → EReal
  | 0 => Ideal.ofBits .f32 0x00000000#32
  | j + 1 => sumK R j + ∑ q : Fin 256, wKn X P T R (256 * j + q.val)

/-- The tiled arrangement's result: one division after the sixteenth tile. -/
def outK (R : Fin 16384) (d : Fin 512) : EReal :=
  Ideal.div (accK X P V T R d 16) (sumK X P T R 16 + Ideal.ofBits .f32 0x322BCC77#32)

/-- The plain arrangement's normaliser. -/
def sumR (R : Fin 16384) : EReal := Ideal.ofBits .f32 0x00000000#32 + ∑ n : Fin 4096, wR X P T R n

/-- The plain arrangement's result: every weight normalised, then summed against V. -/
def outR (R : Fin 16384) (d : Fin 512) : EReal :=
  ∑ n : Fin 4096, Ideal.div (wR X P T R n) (sumR X P T R + Ideal.ofBits .f32 0x322BCC77#32) * V (ix2 n d)

/-! ### Sixteen tiles of 256 are the whole codebook (sums in a commutative monoid: no finiteness) -/

theorem accK_eq (R : Fin 16384) (d : Fin 512) (j : ℕ) :
    accK X P V T R d j
      = Ideal.ofBits .f32 0x00000000#32 + ∑ n ∈ Finset.range (256 * j), wKn X P T R n * vn V n d := by
  induction j with
  | zero => simp [accK]
  | succ j ih =>
    show accK X P V T R d j + _ = _
    rw [ih, Fin.sum_univ_eq_sum_range (fun q => wKn X P T R (256 * j + q) * vn V (256 * j + q) d) 256, add_assoc,
      ← Finset.sum_range_add, show 256 * j + 256 = 256 * (j + 1) from by ring]

theorem sumK_eq (R : Fin 16384) (j : ℕ) :
    sumK X P T R j = Ideal.ofBits .f32 0x00000000#32 + ∑ n ∈ Finset.range (256 * j), wKn X P T R n := by
  induction j with
  | zero => simp [sumK]
  | succ j ih =>
    show sumK X P T R j + _ = _
    rw [ih, Fin.sum_univ_eq_sum_range (fun q => wKn X P T R (256 * j + q)) 256, add_assoc,
      ← Finset.sum_range_add, show 256 * j + 256 = 256 * (j + 1) from by ring]

theorem accK_full (R : Fin 16384) (d : Fin 512) :
    accK X P V T R d 16 = Ideal.ofBits .f32 0x00000000#32 + ∑ n : Fin 4096, wK X P T R n * V (ix2 n d) := by
  rw [accK_eq, show 256 * 16 = 4096 from rfl, ← Fin.sum_univ_eq_sum_range (fun n => wKn X P T R n * vn V n d) 4096]
  refine congrArg _ (Finset.sum_congr rfl fun n _ => ?_)
  simp only [wKn, vn, dif_pos n.isLt, Fin.eta]

theorem sumK_full (R : Fin 16384) :
    sumK X P T R 16 = Ideal.ofBits .f32 0x00000000#32 + ∑ n : Fin 4096, wK X P T R n := by
  rw [sumK_eq, show 256 * 16 = 4096 from rfl, ← Fin.sum_univ_eq_sum_range (fun n => wKn X P T R n) 4096]
  refine congrArg _ (Finset.sum_congr rfl fun n _ => ?_)
  simp only [wKn, dif_pos n.isLt, Fin.eta]

end Spec

/-! ## On real inputs everything is real, and the two arrangements agree -/

section Real

variable (x : (⟨2, ![16384, 512]⟩ : Shape).Idx → ℝ) (p v : (⟨2, ![4096, 512]⟩ : Shape).Idx → ℝ)
  (t : (⟨1, ![4096]⟩ : Shape).Idx → ℝ)

def denR (n : Fin 4096) : ℝ := max (t (ix1 n)) (-t (ix1 n)) + 13421773 / 134217728

def distR (R : Fin 16384) (n : Fin 4096) : ℝ :=
  Real.sqrt (max ((0 + ∑ d : Fin 512, x (ix2 R d) * x (ix2 R d)) + (0 + ∑ d : Fin 512, p (ix2 n d) * p (ix2 n d))
    - 2 * ∑ d : Fin 512, x (ix2 R d) * p (ix2 n d)) 0)

def wRe (R : Fin 16384) (n : Fin 4096) : ℝ := Real.exp (-(distR x p R n) / denR t n)

theorem denR_pos (n : Fin 4096) : 0 < denR t n := by
  unfold denR
  rw [← abs_eq_max_neg]
  positivity

theorem den_coe (n : Fin 4096) : den (fun i => ((t i : ℝ) : EReal)) n = ((denR t n : ℝ) : EReal) := by
  unfold den denR
  simp only [ftenth_eq, ← EReal.coe_neg, ← coe_max, ← EReal.coe_add]

theorem dist_coe (R : Fin 16384) (n : Fin 4096) :
    dist (fun i => ((x i : ℝ) : EReal)) (fun i => ((p i : ℝ) : EReal)) R n = ((distR x p R n : ℝ) : EReal) := by
  unfold dist distR xsq psq dotp
  simp only [fz_coe, ftwo_eq, ← EReal.coe_mul, coe_sum, ← EReal.coe_add, ← EReal.coe_sub, ← coe_max,
    Ideal.sqrt_coe]
  rw [if_neg (not_lt.mpr (le_max_right _ _))]

theorem wK_coe (R : Fin 16384) (n : Fin 4096) :
    wK (fun i => ((x i : ℝ) : EReal)) (fun i => ((p i : ℝ) : EReal)) (fun i => ((t i : ℝ) : EReal)) R n
      = ((wRe x p t R n : ℝ) : EReal) := by
  unfold wK wRe
  rw [dist_coe, den_coe, fnegOne_eq, Ideal.div_coe (denR_pos t n).ne', ← EReal.coe_mul, ← EReal.coe_mul, Ideal.exp_coe]
  congr 2
  ring

theorem wR_coe (R : Fin 16384) (n : Fin 4096) :
    wR (fun i => ((x i : ℝ) : EReal)) (fun i => ((p i : ℝ) : EReal)) (fun i => ((t i : ℝ) : EReal)) R n
      = ((wRe x p t R n : ℝ) : EReal) := by
  unfold wR wRe
  rw [dist_coe, den_coe, ← EReal.coe_neg, Ideal.div_coe (denR_pos t n).ne', ← EReal.coe_mul, Ideal.exp_coe]
  congr 2
  ring

theorem wRe_pos (R : Fin 16384) (n : Fin 4096) : 0 < wRe x p t R n := Real.exp_pos _

/-- THE LAW: on real inputs, dividing once after the sixteen tiles is normalising every weight first. -/
theorem outK_eq_outR_coe (R : Fin 16384) (d : Fin 512) :
    outK (fun i => ((x i : ℝ) : EReal)) (fun i => ((p i : ℝ) : EReal)) (fun i => ((v i : ℝ) : EReal))
        (fun i => ((t i : ℝ) : EReal)) R d
      = outR (fun i => ((x i : ℝ) : EReal)) (fun i => ((p i : ℝ) : EReal)) (fun i => ((v i : ℝ) : EReal))
        (fun i => ((t i : ℝ) : EReal)) R d := by
  unfold outK outR sumR
  rw [accK_full, sumK_full]
  have hD : (0 + ∑ n : Fin 4096, wRe x p t R n + 11258999 / 1125899906842624 : ℝ) ≠ 0 := by
    have h : 0 ≤ ∑ n : Fin 4096, wRe x p t R n := Finset.sum_nonneg fun n _ => (wRe_pos x p t R n).le
    positivity
  simp only [wK_coe, wR_coe, fz_coe, feps_eq, ← EReal.coe_mul, coe_sum, ← EReal.coe_add, Ideal.div_coe hD]
  congr 1
  rw [zero_add, zero_add, Finset.sum_mul]
  exact Finset.sum_congr rfl fun n _ => by ring

end Real

/-- The same for arrays all of whose entries are real numbers. -/
theorem outK_eq_outR (X : Arr2 16384 512) (P V : Arr2 4096 512) (T : Arr1 4096)
    (hX : ∀ i, ∃ r : ℝ, X i = r) (hP : ∀ i, ∃ r : ℝ, P i = r) (hV : ∀ i, ∃ r : ℝ, V i = r) (hT : ∀ i, ∃ r : ℝ, T i = r)
    (R : Fin 16384) (d : Fin 512) : outK X P V T R d = outR X P V T R d := by
  choose x hx using hX
  choose p hp using hP
  choose v hv using hV
  choose t ht using hT
  obtain rfl : X = fun i => ((x i : ℝ) : EReal) := funext hx
  obtain rfl : P = fun i => ((p i : ℝ) : EReal) := funext hp
  obtain rfl : V = fun i => ((v i : ℝ) : EReal) := funext hv
  obtain rfl : T = fun i => ((t i : ℝ) : EReal) := funext ht
  exact outK_eq_outR_coe x p v t R d

end Cert.Geo

end
-- ==== Proof.KPieces.lean ====
/-
  What one grid step leaves in the two carried buffers and in the output block, as pure functions of the blocks
  the step is given.

  A grid step (row block i, codebook tile j) reads the row block of X (x0), the whole codebook P (x1) and V (x2),
  the row block of squared norms (x3), the tile of codebook squared norms (x4) and of negated reciprocal
  temperatures (x5). It slices tile j out of P and V (256 rows starting at row 256 j), forms the 512 x 256 tile of
  weights, and
    * adds the weights' row sums to the running denominator ('sumStep'),
    * adds weights x (tile of V) to the running numerator ('accStep').
  At the first tile of a row block both running buffers are first reset to zero; at the last tile the output
  block is the numerator divided by (denominator + eps), row by row. The three lemmas per control case below say
  exactly that about the stores the executed body was found to make.
-/
import proofs.«109003_j18339510354278_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl

/-- Tile j of a 4096-row codebook array: its 256 rows from row 256 j on. -/
def tile {e : EltTy} (i : grid0.Coords) (x : S4096x512.Idx → Elt F e) : S256x512.Idx → Elt F e :=
  View.ld x (Rect.unit (k0_off1 i) S256x512.size (k0_off1_inb i))

/-- The 512 x 256 tile of weights of a step. -/
def wTile (i : grid0.Coords) (x0 : Vec F S512x512 .f32) (x1 : Vec F S4096x512 .f32) (x3 : Vec F S512x1 .f32)
    (x4 x5 : Vec F S1x256 .f32) : FVec F S512x256 .f32 :=
  k0_pay7 (tile i x1) x0 x3 x4 x5

/-- The running numerator after a step that found it at 'xs0'. -/
def accStep (i : grid0.Coords) (x0 : Vec F S512x512 .f32) (x1 : Vec F S4096x512 .f32) (x2 : Vec F S4096x512 .bf16)
    (x3 : Vec F S512x1 .f32) (x4 x5 : Vec F S1x256 .f32) (xs0 : Vec F S512x512 .f32) : FVec F S512x512 .f32 :=
  k0_pay2 (k0_pay6 (tile i x2)) (wTile i x0 x1 x3 x4 x5) xs0

/-- The running denominator after a step that found it at 'xs1'. -/
def sumStep (i : grid0.Coords) (x0 : Vec F S512x512 .f32) (x1 : Vec F S4096x512 .f32)
    (x3 : Vec F S512x1 .f32) (x4 x5 : Vec F S1x256 .f32) (xs1 : Vec F S512x1 .f32) : FVec F S512x1 .f32 :=
  k0_pay1 (k0_pay8 (tile i x1) x0 x3 x4 x5 xs1)

/-! ## A middle tile -/

theorem acc_B (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : ¬cond0_0 i) (hc1 : ¬cond0_1 i) (x0 : Vec F S512x512 .f32) (x1 : Vec F S4096x512 .f32) (x2 : Vec F S4096x512 .bf16) (x3 : Vec F S512x1 .f32) (x4 : Vec F S1x256 .f32) (x5 : Vec F S1x256 .f32) (xs0 : Vec F S512x512 .f32) (xs1 : Vec F S512x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = accStep i x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg9.read_unread, View.ld_unit_zero (S := S512x512) hz2,
    View.ld_unit_zero (S := S512x1) hz2, View.ld_unit_zero (S := S1x256) hz2]
  rfl

theorem sum_B (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : ¬cond0_0 i) (hc1 : ¬cond0_1 i) (x0 : Vec F S512x512 .f32) (x1 : Vec F S4096x512 .f32) (x2 : Vec F S4096x512 .bf16) (x3 : Vec F S512x1 .f32) (x4 : Vec F S1x256 .f32) (x5 : Vec F S1x256 .f32) (xs0 : Vec F S512x512 .f32) (xs1 : Vec F S512x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = sumStep i x0 x1 x3 x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz2]
  simp only [View.readAt_eq_ld, harg2.read_unread, harg3.read_unread, harg5.read_unread,
    harg6.read_unread, harg7.read_unread, harg10.read_unread, View.ld_unit_zero (S := S512x512) hz2,
    View.ld_unit_zero (S := S512x1) hz2, View.ld_unit_zero (S := S1x256) hz2]
  rfl

/-! ## The first tile of a row block: both running buffers restart from the zero block -/

theorem acc_A (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : cond0_0 i) (hc1 : ¬cond0_1 i) (x0 : Vec F S512x512 .f32) (x1 : Vec F S4096x512 .f32) (x2 : Vec F S4096x512 .bf16) (x3 : Vec F S512x1 .f32) (x4 : Vec F S1x256 .f32) (x5 : Vec F S1x256 .f32) :
    sout0_A_0 c i arg2 harg2 arg3 harg3 arg4 harg4 arg5 harg5 arg6 harg6 arg7 harg7 arg8 harg8 arg9 harg9 arg10 harg10 hc0 hc1 x0 x1 x2 x3 x4 x5 = accStep i x0 x1 x2 x3 x4 x5 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x512) hz2, View.readCov_unit_zero (S := S512x512) _ hz2]
  simp only [View.readAt_eq_ld, harg2.read_unread, harg3.read_unread, harg4.read_unread, harg5.read_unread,
    harg6.read_unread, harg7.read_unread, harg9.read_unread, harg10.read_unread, View.ld_unit_zero (S := S512x512) hz2,
    View.ld_unit_zero (S := S512x1) hz2, View.ld_unit_zero (S := S1x256) hz2]
  rfl

theorem sum_A (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : cond0_0 i) (hc1 : ¬cond0_1 i) (x0 : Vec F S512x512 .f32) (x1 : Vec F S4096x512 .f32) (x2 : Vec F S4096x512 .bf16) (x3 : Vec F S512x1 .f32) (x4 : Vec F S1x256 .f32) (x5 : Vec F S1x256 .f32) :
    sout0_A_1 c i arg2 harg2 arg3 harg3 arg4 harg4 arg5 harg5 arg6 harg6 arg7 harg7 arg8 harg8 arg9 harg9 arg10 harg10 hc0 hc1 x0 x1 x2 x3 x4 x5 = sumStep i x0 x1 x3 x4 x5 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread,
    harg6.read_unread, harg7.read_unread, harg9.read_unread, harg10.read_unread, View.ld_unit_zero (S := S512x512) hz2,
    View.ld_unit_zero (S := S512x1) hz2, View.ld_unit_zero (S := S1x256) hz2]
  rfl

/-! ## The last tile of a row block: the output block is numerator / (denominator + eps) -/

theorem acc_C (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : ¬cond0_0 i) (hc1 : cond0_1 i) (x0 : Vec F S512x512 .f32) (x1 : Vec F S4096x512 .f32) (x2 : Vec F S4096x512 .bf16) (x3 : Vec F S512x1 .f32) (x4 : Vec F S1x256 .f32) (x5 : Vec F S1x256 .f32) (xs0 : Vec F S512x512 .f32) (xs1 : Vec F S512x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = accStep i x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg9.read_unread, harg10.read_unread, View.ld_unit_zero (S := S512x512) hz2,
    View.ld_unit_zero (S := S512x1) hz2, View.ld_unit_zero (S := S1x256) hz2]
  rfl

theorem sum_C (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : ¬cond0_0 i) (hc1 : cond0_1 i) (x0 : Vec F S512x512 .f32) (x1 : Vec F S4096x512 .f32) (x2 : Vec F S4096x512 .bf16) (x3 : Vec F S512x1 .f32) (x4 : Vec F S1x256 .f32) (x5 : Vec F S1x256 .f32) (xs0 : Vec F S512x512 .f32) (xs1 : Vec F S512x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = sumStep i x0 x1 x3 x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg9.read_unread, harg10.read_unread, View.ld_unit_zero (S := S512x512) hz2,
    View.ld_unit_zero (S := S512x1) hz2, View.ld_unit_zero (S := S1x256) hz2]
  rfl

theorem out_C (c : Dev nD) (i : grid0.Coords) (arg2 : Memref sig .tc .vmem S512x512 .f32) (harg2 : arg2.IsWhole) (arg3 : Memref sig .tc .vmem S4096x512 .f32) (harg3 : arg3.IsWhole) (arg4 : Memref sig .tc .vmem S4096x512 .bf16) (harg4 : arg4.IsWhole) (arg5 : Memref sig .tc .vmem S512x1 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1 .f32) (harg10 : arg10.IsWhole) (hc0 : ¬cond0_0 i) (hc1 : cond0_1 i) (x0 : Vec F S512x512 .f32) (x1 : Vec F S4096x512 .f32) (x2 : Vec F S4096x512 .bf16) (x3 : Vec F S512x1 .f32) (x4 : Vec F S1x256 .f32) (x5 : Vec F S1x256 .f32) (xs0 : Vec F S512x512 .f32) (xs1 : Vec F S512x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay3 (accStep i x0 x1 x2 x3 x4 x5 xs0) (sumStep i x0 x1 x3 x4 x5 xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2, View.readCov_unit_zero (S := S512x512) _ hz2, View.readCov_unit_zero (S := S512x1) _ hz2]
  simp only [View.readAt_eq_ld, harg2.read_unread, harg3.read_unread, harg4.read_unread, harg5.read_unread,
    harg6.read_unread, harg7.read_unread, harg9.read_unread, harg10.read_unread, View.ld_unit_zero (S := S512x512) hz2,
    View.ld_unit_zero (S := S512x1) hz2, View.ld_unit_zero (S := S1x256) hz2]
  rfl

end Cert.KernelIdeal.Pieces

end
-- ==== Proof.KPayload.lean ====
/-
  One grid step's arithmetic read at an entry, over the extended reals.

  With the step's blocks as plain arrays — x0 the 512 x 512 row block of X, pt and vt the 256 x 512 tiles of P and V,
  x3 the row block's squared norms (a 512 x 1 column), x4 and x5 the tile's squared norms and negated reciprocal
  temperatures (1 x 256 rows) —
    * the weight tile at (r, q) is exp (sqrt (max (x3 r + x4 q - 2 * sum_k x0 r k * pt q k) 0) * x5 q),
    * the running denominator at (r, 0) grows by the weights' row sum  sum_q w r q,
    * the running numerator at (r, d) grows by  sum_q w r q * vt q d,
    * the output block at (r, d) is  numerator r d / (denominator r + eps).
  The two matrix products are contractions over one axis (the first one contracts the SECOND axis of both of its
  operands), read as sums over 'Fin 512' and 'Fin 256'.
-/
import proofs.«109003_j18339510354278_2_alg».proof.Proof.KPieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pieces

open Idealize.ShloMosaic Idealize.ShloMosaic.ValueIdx
open Cert.KernelIdeal Cert.KernelIdeal.Gen

/-! ## The layout operations of the body, at an entry -/

/-- A 512 x 1 column broadcast over 256 lanes reads its row. -/
theorem bcastCol256 {α : Type} (v : S512x1.Idx → α) (r : Fin 512) (q : Fin 256) :
    broadcastTo S512x256 v broadcasts_S512x1_S512x256 (ix2 r q) = v (ix2 r 0) := by
  refine broadcastTo_apply v _ (ix2 r q) (ix2 r 0) fun ax => ?_
  match ax with
  | ⟨0, _⟩ => rfl
  | ⟨1, _⟩ => rfl

/-- A 512 x 1 column broadcast over 512 lanes reads its row. -/
theorem bcastCol512 {α : Type} (v : S512x1.Idx → α) (r : Fin 512) (d : Fin 512) :
    broadcastTo S512x512 v broadcasts_S512x1_S512x512 (ix2 r d) = v (ix2 r 0) := by
  refine broadcastTo_apply v _ (ix2 r d) (ix2 r 0) fun ax => ?_
  match ax with
  | ⟨0, _⟩ => rfl
  | ⟨1, _⟩ => rfl

/-- A length-512 vector recast as a 512 x 1 column reads its entry. -/
theorem colOfVec {α : Type} (v : S512.Idx → α) (r : Fin 512) :
    shapeCast S512x1 v shapeCasts_S512_S512x1 (ix2 r 0) = v (ix1 r) :=
  shapeCast_apply v _ _ _ (by
    rw [Shape.rowMajor_val_two, Shape.rowMajor_val_one]
    show r.val = r.val * 1 + 0
    omega)

/-- The row sums of a 512 x 256 tile. -/
theorem rowSum_apply (src : FVec Ideal S512x256 .f32) (r : Fin 512) :
    multiReduction .add [1] S512 src 0x00000000#32 reduces_S512x256_S512 (.inl rfl) rfl (ix1 r)
      = ∑ q : Fin 256, src (ix2 r q) := by
  refine (Ideal.multiReduction_add_single src 0x00000000#32 reduces_S512x256_S512 (.inl rfl) rfl (ix1 r)).trans ?_
  refine Finset.sum_congr rfl fun q _ => congrArg src (funext fun a => ?_)
  match a with
  | ⟨0, _⟩ => rfl
  | ⟨1, _⟩ => rfl

/-- The row coordinate of the distance product's left operand is the output's row; -/
theorem d1_lhs0 (j : S512x256.Idx) (k : dot_S512x512_S256x512_S512x256_1_1_0_0_n_n.contr.Idx) : (dot_S512x512_S256x512_S512x256_1_1_0_0_n_n.lhsIdx j k 0).val = (j 0).val := by
  unfold DotDims.lhsIdx
  rw [dif_neg (show ¬(0 : Fin S512x512.rank) ∈ dot_S512x512_S256x512_S512x256_1_1_0_0_n_n.lhsBatch by decide), dif_pos (show (0 : Fin S512x512.rank) ∈ dot_S512x512_S256x512_S512x256_1_1_0_0_n_n.lhsNonContracting by decide)]
  rfl
/-- the row coordinate of its right operand is the output's column. -/
theorem d1_rhs0 (j : S512x256.Idx) (k : dot_S512x512_S256x512_S512x256_1_1_0_0_n_n.contr.Idx) : (dot_S512x512_S256x512_S512x256_1_1_0_0_n_n.rhsIdx j k 0).val = (j 1).val := by
  unfold DotDims.rhsIdx
  rw [dif_neg (show ¬(0 : Fin S256x512.rank) ∈ dot_S512x512_S256x512_S512x256_1_1_0_0_n_n.rhsBatch by decide), dif_pos (show (0 : Fin S256x512.rank) ∈ dot_S512x512_S256x512_S512x256_1_1_0_0_n_n.rhsNonContracting by decide)]
  rfl
/-- The value product's left operand keeps the output's row, its right operand the output's column. -/
theorem d2_lhs0 (j : S512x512.Idx) (k : dot_S512x256_S256x512_S512x512_1_0_0_1_n_n.contr.Idx) : (dot_S512x256_S256x512_S512x512_1_0_0_1_n_n.lhsIdx j k 0).val = (j 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem d2_rhs1 (j : S512x512.Idx) (k : dot_S512x256_S256x512_S512x512_1_0_0_1_n_n.contr.Idx) : (dot_S512x256_S256x512_S512x512_1_0_0_1_n_n.rhsIdx j k 1).val = (j 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The distance product: rows of the block against rows of the tile (both operands contracted on their second axis). -/
theorem mmDist_apply (l : FVec Ideal S512x512 .f32) (rr : FVec Ideal S256x512 .f32) (r : Fin 512) (q : Fin 256) :
    matmul dot_S512x512_S256x512_S512x256_1_1_0_0_n_n (some .fp32) l rr (constant S512x256 .f32 0x00000000#32) (ix2 r q)
      = ∑ k : Fin 512, l (ix2 r k) * rr (ix2 q k) := by
  simp only [matmul]
  rw [Ideal.matmul_constant_zero_apply, ← Equiv.sum_comp (contrEquiv1 dot_S512x512_S256x512_S512x256_1_1_0_0_n_n 512 rfl rfl).symm]
  refine Finset.sum_congr rfl fun k _ => ?_
  have hk := contrEquiv1_symm_val dot_S512x512_S256x512_S512x256_1_1_0_0_n_n 512 rfl rfl k
  have el : dot_S512x512_S256x512_S512x256_1_1_0_0_n_n.lhsIdx (ix2 r q) ((contrEquiv1 dot_S512x512_S256x512_S512x256_1_1_0_0_n_n 512 rfl rfl).symm k) = ix2 r k := funext fun a => Fin.ext (by
    match a with
    | ⟨0, _⟩ => exact d1_lhs0 _ _
    | ⟨1, _⟩ => exact (dot_S512x512_S256x512_S512x256_1_1_0_0_n_n.lhsIdx_val_of_single rfl _ _).trans hk)
  have er : dot_S512x512_S256x512_S512x256_1_1_0_0_n_n.rhsIdx (ix2 r q) ((contrEquiv1 dot_S512x512_S256x512_S512x256_1_1_0_0_n_n 512 rfl rfl).symm k) = ix2 q k := funext fun a => Fin.ext (by
    match a with
    | ⟨0, _⟩ => exact d1_rhs0 _ _
    | ⟨1, _⟩ => exact (dot_S512x512_S256x512_S512x256_1_1_0_0_n_n.rhsIdx_val_of_single rfl _ _).trans hk)
  rw [el, er]

/-- The value product: weights against the tile of V (a plain rows-by-columns product). -/
theorem mmVal_apply (l : FVec Ideal S512x256 .bf16) (rr : FVec Ideal S256x512 .bf16) (r : Fin 512) (d : Fin 512) :
    matmul dot_S512x256_S256x512_S512x512_1_0_0_1_n_n none l rr (constant S512x512 .f32 0x00000000#32) (ix2 r d)
      = ∑ q : Fin 256, l (ix2 r q) * rr (ix2 q d) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 r d) ((contrEquiv1 dot_S512x256_S256x512_S512x512_1_0_0_1_n_n 256 rfl rfl).symm k) = ix2 r k := funext fun a => Fin.ext (by
    match a with
    | ⟨0, _⟩ => exact d2_lhs0 _ _
    | ⟨1, _⟩ => exact (dot_S512x256_S256x512_S512x512_1_0_0_1_n_n.lhsIdx_val_of_single rfl _ _).trans hk)
  have er : dot_S512x256_S256x512_S512x512_1_0_0_1_n_n.rhsIdx (ix2 r d) ((contrEquiv1 dot_S512x256_S256x512_S512x512_1_0_0_1_n_n 256 rfl rfl).symm k) = ix2 k d := funext fun a => Fin.ext (by
    match a with
    | ⟨0, _⟩ => exact (dot_S512x256_S256x512_S512x512_1_0_0_1_n_n.rhsIdx_val_of_single rfl _ _).trans hk
    | ⟨1, _⟩ => exact d2_rhs1 _ _)
  rw [el, er]

/-! ## The step's values at an entry -/

/-- The weight of the step's row r against the tile's entry q. -/
theorem wTile_apply (i : grid0.Coords) (x0 : Vec Ideal S512x512 .f32) (x1 : Vec Ideal S4096x512 .f32)
    (x3 : Vec Ideal S512x1 .f32) (x4 x5 : Vec Ideal S1x256 .f32) (r : Fin 512) (q : Fin 256) :
    wTile i x0 x1 x3 x4 x5 (ix2 r q)
      = Ideal.exp (Ideal.sqrt (max (x3 (ix2 r 0) + x4 (ix2 0 q)
            - Ideal.ofBits .f32 0x40000000#32 * ∑ k : Fin 512, x0 (ix2 r k) * tile i x1 (ix2 q k))
          (Ideal.ofBits .f32 0x00000000#32)) * x5 (ix2 0 q)) := by
  unfold wTile k0_pay7
  simp only [shapeCast_self]
  simp only [exp, sqrt, mulf, addf, subf, maximumf, broadcast, Scalar.ofBits, Ideal.exp_def, Ideal.sqrt_def, Ideal.mulf_def,
    Ideal.addf_def, Ideal.subf_def, Ideal.maximumf_def, Ideal.ofBits_def]
  rw [bcastCol256, broadcastTo_1b_ab_apply, broadcastTo_1b_ab_apply, mmDist_apply]

/-- The running denominator after the step, at row r. -/
theorem sumStep_apply (i : grid0.Coords) (x0 : Vec Ideal S512x512 .f32) (x1 : Vec Ideal S4096x512 .f32)
    (x3 : Vec Ideal S512x1 .f32) (x4 x5 : Vec Ideal S1x256 .f32) (xs1 : Vec Ideal S512x1 .f32) (r : Fin 512) :
    sumStep i x0 x1 x3 x4 x5 xs1 (ix2 r 0) = xs1 (ix2 r 0) + ∑ q : Fin 256, wTile i x0 x1 x3 x4 x5 (ix2 r q) := by
  unfold sumStep k0_pay1 k0_pay8
  simp only [shapeCast_self]
  simp only [addf, Ideal.addf_def]
  rw [colOfVec, rowSum_apply]
  rfl

/-- The running numerator after the step, at (r, d). -/
theorem accStep_apply (i : grid0.Coords) (x0 : Vec Ideal S512x512 .f32) (x1 : Vec Ideal S4096x512 .f32)
    (x2 : Vec Ideal S4096x512 .bf16) (x3 : Vec Ideal S512x1 .f32) (x4 x5 : Vec Ideal S1x256 .f32)
    (xs0 : Vec Ideal S512x512 .f32) (r : Fin 512) (d : Fin 512) :
    accStep i x0 x1 x2 x3 x4 x5 xs0 (ix2 r d)
      = xs0 (ix2 r d) + ∑ q : Fin 256, wTile i x0 x1 x3 x4 x5 (ix2 r q) * tile i x2 (ix2 q d) := by
  unfold accStep k0_pay2 k0_pay6
  simp only [shapeCast_self]
  simp only [addf, Ideal.addf_def]
  rw [mmVal_apply]
  rfl

/-- The output block of a row block's last step, at (r, d). -/
theorem out_apply (a : Vec Ideal S512x512 .f32) (s : Vec Ideal S512x1 .f32) (r : Fin 512) (d : Fin 512) :
    k0_pay3 (F := Ideal) a s (ix2 r d) = Ideal.div (a (ix2 r d)) (s (ix2 r 0) + Ideal.ofBits .f32 0x322BCC77#32) := by
  unfold k0_pay3
  simp only [divf, addf, broadcast, Scalar.ofBits, Ideal.divf_def, Ideal.addf_def, Ideal.ofBits_def]
  rw [bcastCol512]
  rfl

/-- The zero blocks a row block's first step restarts from. -/
theorem zeroAcc_apply (j : S512x512.Idx) : k0_pay4 (F := Ideal) j = Ideal.ofBits .f32 0x00000000#32 := by
  unfold k0_pay4
  simp only [shapeCast_self]
  rfl

theorem zeroSum_apply (j : S512x1.Idx) : k0_pay5 (F := Ideal) j = Ideal.ofBits .f32 0x00000000#32 := by
  unfold k0_pay5
  simp only [shapeCast_self]
  rfl

end Cert.KernelIdeal.Pieces

end
-- ==== Proof.KBlocks.lean ====
/-
  What each grid step is handed, in terms of whole arrays.

  Grid point t is row block t / 16 and codebook tile t % 16. Its windows hold: rows 512 (t/16) .. +511 of the
  flattened X and of X's squared row norms; the whole of P and of V; entries 256 (t%16) .. +255 of P's squared
  row norms and of the negated reciprocal temperatures. Inside the step the tile of P and of V is rows
  256 (t%16) .. +255 of the whole arrays.
-/
import proofs.«109003_j18339510354278_2_alg».proof.Proof.KPayload
import proofs.«109003_j18339510354278_2_alg».proof.Proof.GeoSpec
import Idealize.ShloMosaic.Lib.StableHlo.Run

set_option maxRecDepth 16384

noncomputable section

namespace Cert.KernelIdeal.Pieces

open Idealize.ShloMosaic Idealize.ShloMosaic.TcCoe Idealize.ShloMosaic.ValueIdx Idealize.SL.Sem
open Idealize.ShloMosaic.StableHlo
open Cert.KernelIdeal Cert.KernelIdeal.Gen

/-- The global row of the step's local row r. -/
def rowOf (t : Fin cfg0.N) (r : Fin 512) : Fin 16384 :=
  ⟨512 * (t.val / 16) + r.val, by have hN : cfg0.N = 512 := N_0; have := t.isLt; have := r.isLt; omega⟩

/-- The global codebook position of the step's local entry q. -/
def colOf (t : Fin cfg0.N) (q : Fin 256) : Fin 4096 :=
  ⟨256 * (t.val % 16) + q.val, by have := q.isLt; omega⟩

/-! ## Where the windows sit, decided once over the 512 grid points -/

theorem idx0 : ∀ t : Fin cfg0.N, win0_0.index t 0 = t.val / 16 ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = t.val / 16 ∧ win0_3.index t 1 = 0 :=
  (by decide +kernel : ∀ t : Fin grid0.N, _)
theorem idx4 : ∀ t : Fin cfg0.N, win0_4.index t 0 = 0 ∧ win0_4.index t 1 = t.val % 16 :=
  (by decide +kernel : ∀ t : Fin grid0.N, _)
theorem idx5 : ∀ t : Fin cfg0.N, win0_5.index t 0 = 0 ∧ win0_5.index t 1 = t.val % 16 :=
  (by decide +kernel : ∀ t : Fin grid0.N, _)
theorem idx6 : ∀ t : Fin cfg0.N, win0_6.index t 0 = t.val / 16 ∧ win0_6.index t 1 = 0 :=
  (by decide +kernel : ∀ t : Fin grid0.N, _)
theorem off1 : ∀ t : Fin cfg0.N, k0_off1 (grid0.coords t) 0 = 256 * (t.val % 16) ∧ k0_off1 (grid0.coords t) 1 = 0 :=
  (by decide +kernel : ∀ t : Fin grid0.N, _)

variable {F : FTy → Type} [FloatOps F]
variable (m : (ℓ : Loc nD τ sig) → Buf (Elt F) ℓ)

/-! ## The blocks, read at an entry -/

theorem blk0 (c : Dev nD) (t : Fin cfg0.N) (r : Fin 512) (k : Fin 512) :
    (iblk m c 0 t : Vec F S512x512 .f32) (ix2 r k) = (V m c main_v0 : S16384x512.Idx → Elt F .f32) (ix2 (rowOf t r) k) := by
  unfold iblk
  rw [View.read_apply]
  show V m c main_v0 _ = V m c main_v0 _
  congr 1
  funext a
  apply Fin.ext
  match a with
  | ⟨0, _⟩ => show win0_0.index t 0 * 512 + 1 * r.val = 512 * (t.val / 16) + r.val; rw [(idx0 t).1]; omega
  | ⟨1, _⟩ => show win0_0.index t 1 * 512 + 1 * k.val = k.val; rw [(idx0 t).2]; omega

theorem blk1 (c : Dev nD) (t : Fin cfg0.N) (n : Fin 4096) (k : Fin 512) :
    (iblk m c 1 t : Vec F S4096x512 .f32) (ix2 n k) = (V m c main_arg1 : S4096x512.Idx → Elt F .f32) (ix2 n k) := by
  unfold iblk
  rw [View.read_apply]
  show V m c main_arg1 _ = V m c main_arg1 _
  congr 1
  funext a
  apply Fin.ext
  match a with
  | ⟨0, _⟩ => show win0_1.index t 0 * 4096 + 1 * n.val = n.val; rw [(idx1 t).1]; omega
  | ⟨1, _⟩ => show win0_1.index t 1 * 512 + 1 * k.val = k.val; rw [(idx1 t).2]; omega

theorem blk2 (c : Dev nD) (t : Fin cfg0.N) (n : Fin 4096) (k : Fin 512) :
    (iblk m c 2 t : Vec F S4096x512 .bf16) (ix2 n k) = (V m c main_v13 : S4096x512.Idx → Elt F .bf16) (ix2 n k) := by
  unfold iblk
  rw [View.read_apply]
  show V m c main_v13 _ = V m c main_v13 _
  congr 1
  funext a
  apply Fin.ext
  match a with
  | ⟨0, _⟩ => show win0_2.index t 0 * 4096 + 1 * n.val = n.val; rw [(idx2 t).1]; omega
  | ⟨1, _⟩ => show win0_2.index t 1 * 512 + 1 * k.val = k.val; rw [(idx2 t).2]; omega

theorem blk3 (c : Dev nD) (t : Fin cfg0.N) (r : Fin 512) :
    (iblk m c 3 t : Vec F S512x1 .f32) (ix2 r 0) = (V m c main_v3 : S16384x1.Idx → Elt F .f32) (ix2 (rowOf t r) 0) := by
  unfold iblk
  rw [View.read_apply]
  show V m c main_v3 _ = V m c main_v3 _
  congr 1
  funext a
  apply Fin.ext
  match a with
  | ⟨0, _⟩ => show win0_3.index t 0 * 512 + 1 * r.val = 512 * (t.val / 16) + r.val; rw [(idx3 t).1]; omega
  | ⟨1, _⟩ => show win0_3.index t 1 * 1 + 1 * 0 = 0; rw [(idx3 t).2]

theorem blk4 (c : Dev nD) (t : Fin cfg0.N) (q : Fin 256) :
    (iblk m c 4 t : Vec F S1x256 .f32) (ix2 0 q) = (V m c main_v6 : S1x4096.Idx → Elt F .f32) (ix2 0 (colOf t q)) := by
  unfold iblk
  rw [View.read_apply]
  show V m c main_v6 _ = V m c main_v6 _
  congr 1
  funext a
  apply Fin.ext
  match a with
  | ⟨0, _⟩ => show win0_4.index t 0 * 1 + 1 * 0 = 0; rw [(idx4 t).1]
  | ⟨1, _⟩ => show win0_4.index t 1 * 256 + 1 * q.val = 256 * (t.val % 16) + q.val; rw [(idx4 t).2]; omega

theorem blk5 (c : Dev nD) (t : Fin cfg0.N) (q : Fin 256) :
    (iblk m c 5 t : Vec F S1x256 .f32) (ix2 0 q) = (V m c main_v12 : S1x4096.Idx → Elt F .f32) (ix2 0 (colOf t q)) := by
  unfold iblk
  rw [View.read_apply]
  show V m c main_v12 _ = V m c main_v12 _
  congr 1
  funext a
  apply Fin.ext
  match a with
  | ⟨0, _⟩ => show win0_5.index t 0 * 1 + 1 * 0 = 0; rw [(idx5 t).1]
  | ⟨1, _⟩ => show win0_5.index t 1 * 256 + 1 * q.val = 256 * (t.val % 16) + q.val; rw [(idx5 t).2]; omega

/-- The tile a step slices out of a whole codebook array is rows 256 (t % 16) + q. -/
theorem tile_apply {e : EltTy} (t : Fin cfg0.N) (x : S4096x512.Idx → Elt F e) (q : Fin 256) (k : Fin 512) :
    tile (grid0.coords t) x (ix2 q k) = x (ix2 (colOf t q) k) := by
  unfold tile View.ld
  congr 1
  funext a
  apply Fin.ext
  match a with
  | ⟨0, _⟩ => show k0_off1 (grid0.coords t) 0 + 1 * q.val = 256 * (t.val % 16) + q.val; rw [(off1 t).1]; omega
  | ⟨1, _⟩ => show k0_off1 (grid0.coords t) 1 + 1 * k.val = k.val; rw [(off1 t).2]; omega

end Cert.KernelIdeal.Pieces

end
-- ==== Proof.KHost.lean ====
/-
  The arrays the host prepares before the grid runs, read at an entry: the flattened X; the squared row norms of X
  (a column) and of P (a row); the negated reciprocal temperatures -1 / (|T n| + 0.1) (a row); V with its format
  changed, which over the extended reals is V. And from them: the weight tile of grid point t is the tiled
  arrangement's weight 'Geo.wK' at the point's global rows and codebook positions.
-/
import proofs.«109003_j18339510354278_2_alg».proof.Proof.KBlocks

set_option maxRecDepth 16384

noncomputable section

namespace Cert.KernelIdeal.Pieces

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- X flattened to 16384 rows. -/
def Xf (c : Dev nD) : Cert.Geo.Arr2 16384 512 :=
  shapeCast S16384x512 (m ((c : Thread nD τ).loc main_arg0)) shapeCasts_S8x2048x512_S16384x512
/-- The codebook positions, values and temperatures as launched. -/
def Pa (c : Dev nD) : Cert.Geo.Arr2 4096 512 := m ((c : Thread nD τ).loc main_arg1)
def Va (c : Dev nD) : Cert.Geo.Arr2 4096 512 := m ((c : Thread nD τ).loc main_arg2)
def Ta (c : Dev nD) : Cert.Geo.Arr1 4096 := m ((c : Thread nD τ).loc main_arg3)

theorem V_v0 (c : Dev nD) : (V m c main_v0 : S16384x512.Idx → EReal) = Xf m c := by
  show StableHlo.after hostOps0 (fun b => m (c, b)) (Proc.devRef .tc main_v0) = _
  after_results
  rfl

theorem V_v3 (c : Dev nD) : (V m c main_v3 : S16384x1.Idx → EReal)
    = broadcastInDim S16384x1 ![0] bcast_S16384_S16384x1_0
        (Host.reduceAdd (F := Ideal) (mulf (Xf m c) (Xf m c)) (constant (F := Ideal) S_ .f32 0x00000000#32) reducesTo_S16384x512_S16384_d1 h_S_) := by
  show StableHlo.after hostOps0 (fun b => m (c, b)) (Proc.devRef .tc main_v3) = _
  after_results
  rfl

theorem V_v6 (c : Dev nD) : (V m c main_v6 : S1x4096.Idx → EReal)
    = shapeCast S1x4096 (Host.reduceAdd (F := Ideal) (mulf (Pa m c) (Pa m c)) (constant (F := Ideal) S_ .f32 0x00000000#32) reducesTo_S4096x512_S4096_d1 h_S_)
        shapeCasts_S4096_S1x4096 := by
  show StableHlo.after hostOps0 (fun b => m (c, b)) (Proc.devRef .tc main_v6) = _
  after_results
  rfl

theorem V_v12 (c : Dev nD) : (V m c main_v12 : S1x4096.Idx → EReal)
    = shapeCast S1x4096 (Host.divf (F := Ideal) (broadcastInDim S4096 ![] bcast_S_S4096 (constant (F := Ideal) S_ .f32 0xBF800000#32))
          (addf (Host.absf (F := Ideal) (Ta m c)) (broadcastInDim S4096 ![] bcast_S_S4096 (constant (F := Ideal) S_ .f32 0x3DCCCCCD#32))))
        shapeCasts_S4096_S1x4096 := by
  show StableHlo.after hostOps0 (fun b => m (c, b)) (Proc.devRef .tc main_v12) = _
  after_results
  rfl

theorem V_v13 (c : Dev nD) : (V m c main_v13 : S4096x512.Idx → EReal) = Va m c := by
  show StableHlo.after hostOps0 (fun b => m (c, b)) (Proc.devRef .tc main_v13) = _
  after_results
  rfl

/-! ## The prepared arrays at an entry -/

theorem xsqAt (c : Dev nD) (R : Fin 16384) :
    (V m c main_v3 : S16384x1.Idx → EReal) (ix2 R 0) = Cert.Geo.xsq (Xf m c) R := by
  rw [V_v3, broadcastInDim_apply _ bcast_S16384_S16384x1_0 _ (ix2 R 0) (ix1 R) (fun a => match a with
    | ⟨0, _⟩ => by show R.val = if (16384 : Nat) = 1 then 0 else R.val; rw [if_neg (by decide)])]
  simp only [Host.reduceAdd, Ideal.hostReduceAdd_def]
  rw [Ideal.hostReduceAdd_single reducesTo_S16384x512_S16384_d1 (by decide)]
  unfold Cert.Geo.xsq
  refine congrArg₂ (· + ·) rfl (Finset.sum_congr rfl fun k _ => ?_)
  refine (congrArg (mulf (F := Ideal) (s := S16384x512) (φ := .f32) (Xf m c) (Xf m c)) (?_ : _ = ix2 R k)).trans rfl
  exact funext fun a => Fin.ext (by match a with | ⟨0, _⟩ => rfl | ⟨1, _⟩ => rfl)

theorem psqAt (c : Dev nD) (n : Fin 4096) :
    (V m c main_v6 : S1x4096.Idx → EReal) (ix2 0 n) = Cert.Geo.psq (Pa m c) n := by
  rw [V_v6, shapeCast_a_1a_apply]
  simp only [Host.reduceAdd, Ideal.hostReduceAdd_def]
  rw [Ideal.hostReduceAdd_single reducesTo_S4096x512_S4096_d1 (by decide)]
  unfold Cert.Geo.psq
  refine congrArg₂ (· + ·) rfl (Finset.sum_congr rfl fun k _ => ?_)
  refine (congrArg (mulf (F := Ideal) (s := S4096x512) (φ := .f32) (Pa m c) (Pa m c)) (?_ : _ = ix2 n k)).trans rfl
  exact funext fun a => Fin.ext (by match a with | ⟨0, _⟩ => rfl | ⟨1, _⟩ => rfl)

theorem ninvAt (c : Dev nD) (n : Fin 4096) :
    (V m c main_v12 : S1x4096.Idx → EReal) (ix2 0 n)
      = Ideal.div (Ideal.ofBits .f32 0xBF800000#32) (Cert.Geo.den (Ta m c) n) := by
  rw [V_v12, shapeCast_a_1a_apply]
  rfl

/-! ## One grid step over the whole arrays -/

/-- A step's weight from what its blocks hold: if the row block, the tile of P and the three norm / temperature
    blocks are the corresponding entries of whole arrays X, P, T, the weight is 'Geo.wK' there. -/
theorem weight_of_blocks (i : grid0.Coords) (x0 : Vec Ideal S512x512 .f32) (x1 : Vec Ideal S4096x512 .f32)
    (x3 : Vec Ideal S512x1 .f32) (x4 x5 : Vec Ideal S1x256 .f32)
    (X : Cert.Geo.Arr2 16384 512) (P : Cert.Geo.Arr2 4096 512) (T : Cert.Geo.Arr1 4096)
    (R : Fin 16384) (n : Fin 4096) (r : Fin 512) (q : Fin 256)
    (h0 : ∀ k : Fin 512, x0 (ix2 r k) = X (ix2 R k)) (h1 : ∀ k : Fin 512, tile i x1 (ix2 q k) = P (ix2 n k))
    (h3 : x3 (ix2 r 0) = Cert.Geo.xsq X R) (h4 : x4 (ix2 0 q) = Cert.Geo.psq P n)
    (h5 : x5 (ix2 0 q) = Ideal.div (Ideal.ofBits .f32 0xBF800000#32) (Cert.Geo.den T n)) :
    wTile i x0 x1 x3 x4 x5 (ix2 r q) = Cert.Geo.wK X P T R n := by
  rw [wTile_apply, h3, h4, h5]
  unfold Cert.Geo.wK Cert.Geo.dist Cert.Geo.dotp
  simp only [h0, h1]

/-- The step's weight of local row r against local entry q is the weight of their global positions. -/
theorem weightAt (c : Dev nD) (t : Fin cfg0.N) (r : Fin 512) (q : Fin 256) :
    wTile (grid0.coords t) (iblk m c 0 t) (iblk m c 1 t) (iblk m c 3 t) (iblk m c 4 t) (iblk m c 5 t) (ix2 r q)
      = Cert.Geo.wK (Xf m c) (Pa m c) (Ta m c) (rowOf t r) (colOf t q) :=
  weight_of_blocks (grid0.coords t) (iblk m c 0 t) (iblk m c 1 t) (iblk m c 3 t) (iblk m c 4 t) (iblk m c 5 t)
    (Xf m c) (Pa m c) (Ta m c) (rowOf t r) (colOf t q) r q
    (fun k => (blk0 m c t r k).trans (congrFun (V_v0 m c) _))
    (fun k => (tile_apply t _ q k).trans ((blk1 m c t (colOf t q) k).trans (congrFun (V_main_arg1 m c) _)))
    ((blk3 m c t r).trans (xsqAt m c _)) ((blk4 m c t q).trans (psqAt m c _)) ((blk5 m c t q).trans (ninvAt m c _))

/-- The running numerator after grid step t, from what the step found. -/
theorem accStepAt (c : Dev nD) (t : Fin cfg0.N) (xs0 : Vec Ideal S512x512 .f32) (r : Fin 512) (d : Fin 512) :
    accStep (grid0.coords t) (iblk m c 0 t) (iblk m c 1 t) (iblk m c 2 t) (iblk m c 3 t) (iblk m c 4 t) (iblk m c 5 t) xs0 (ix2 r d)
      = xs0 (ix2 r d) + ∑ q : Fin 256, Cert.Geo.wKn (Xf m c) (Pa m c) (Ta m c) (rowOf t r) (256 * (t.val % 16) + q.val)
          * Cert.Geo.vn (Va m c) (256 * (t.val % 16) + q.val) d := by
  refine (accStep_apply (grid0.coords t) (iblk m c 0 t) (iblk m c 1 t) (iblk m c 2 t) (iblk m c 3 t) (iblk m c 4 t) (iblk m c 5 t) xs0 r d).trans ?_
  refine congrArg (xs0 (ix2 r d) + ·) (Finset.sum_congr rfl fun q _ => ?_)
  have h : 256 * (t.val % 16) + q.val < 4096 := (colOf t q).isLt
  rw [weightAt, tile_apply, blk2, V_v13]
  unfold Cert.Geo.wKn Cert.Geo.vn
  rw [dif_pos h, dif_pos h]
  rfl

/-- The running denominator after grid step t, from what the step found. -/
theorem sumStepAt (c : Dev nD) (t : Fin cfg0.N) (xs1 : Vec Ideal S512x1 .f32) (r : Fin 512) :
    sumStep (grid0.coords t) (iblk m c 0 t) (iblk m c 1 t) (iblk m c 3 t) (iblk m c 4 t) (iblk m c 5 t) xs1 (ix2 r 0)
      = xs1 (ix2 r 0) + ∑ q : Fin 256, Cert.Geo.wKn (Xf m c) (Pa m c) (Ta m c) (rowOf t r) (256 * (t.val % 16) + q.val) := by
  refine (sumStep_apply (grid0.coords t) (iblk m c 0 t) (iblk m c 1 t) (iblk m c 3 t) (iblk m c 4 t) (iblk m c 5 t) xs1 r).trans ?_
  refine congrArg (xs1 (ix2 r 0) + ·) (Finset.sum_congr rfl fun q _ => ?_)
  have h : 256 * (t.val % 16) + q.val < 4096 := (colOf t q).isLt
  rw [weightAt]
  unfold Cert.Geo.wKn
  rw [dif_pos h]
  rfl

end Cert.KernelIdeal.Pieces

end
-- ==== Proof.KInv.lean ====
/-
  The grid, point by point, and the array it leaves.

  Walking the 512 grid points in order (row block t / 16, codebook tile t % 16), the two carried buffers hold, after
  point t and at local row r, the tiled arrangement's running numerator and denominator 'Geo.accK', 'Geo.sumK' of
  global row 512 (t/16) + r after t % 16 + 1 tiles: a row block's first point restarts them from zero, every other
  point continues from what the point before left. At a row block's last point (t % 16 = 15) the output block is
  their quotient 'Geo.outK', and only those points write their block back; the thirty-two written blocks tile the
  16384 x 512 result, which therefore ends holding 'Geo.outK' everywhere. The final reshape to 8 x 2048 x 512 is the
  last host operation.
-/
import proofs.«109003_j18339510354278_2_alg».proof.Proof.KHost

set_option maxRecDepth 16384

noncomputable section

namespace Cert.KernelIdeal.Pieces

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## What a point leaves, case by case, in terms of the step functions -/

/-- A row block's first point: both carried buffers are one step from the zero blocks. -/
theorem at_first (c : Dev nD) (t : Fin cfg0.N) (h0 : t.val % 16 = 0) (h1 : ¬t.val % 16 = 15) :
    (outsAt0 m c t.val t.isLt).2.1 = accStep (grid0.coords t) (iblk m c 0 t) (iblk m c 1 t) (iblk m c 2 t) (iblk m c 3 t) (iblk m c 4 t) (iblk m c 5 t) (k0_pay4 (F := Ideal))
    ∧ (outsAt0 m c t.val t.isLt).2.2 = sumStep (grid0.coords t) (iblk m c 0 t) (iblk m c 1 t) (iblk m c 3 t) (iblk m c 4 t) (iblk m c 5 t) (k0_pay5 (F := Ideal)) := by
  rw [outsAt0_A m c t h0 h1]
  dsimp only
  exact ⟨acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t) (iblk m c 4 t) (iblk m c 5 t),
    sum_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t) (iblk m c 4 t) (iblk m c 5 t)⟩

/-- A middle point: one step from what the point before left. -/
theorem at_middle (c : Dev nD) (n : ℕ) (hn : n + 1 < cfg0.N) (h0 : ¬(n + 1) % 16 = 0) (h1 : ¬(n + 1) % 16 = 15) :
    (outsAt0 m c (n + 1) hn).2.1
        = accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1
    ∧ (outsAt0 m c (n + 1) hn).2.2
        = sumStep (grid0.coords ⟨n + 1, hn⟩) (iblk m c 0 ⟨n + 1, hn⟩) (iblk m c 1 ⟨n + 1, hn⟩) (iblk m c 3 ⟨n + 1, hn⟩) (iblk m c 4 ⟨n + 1, hn⟩) (iblk m c 5 ⟨n + 1, hn⟩) (outsAt0 m c n (Nat.lt_of_succ_lt hn)).2.2 := by
  rw [outsAt0_B m c ⟨n + 1, hn⟩ h0 h1]
  dsimp only
  simp only [Nat.add_sub_cancel]
  exact ⟨acc_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole cc0_scratch0) scM0_1 (Memref.isWhole_whole cc0_scratch1) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1 (outsAt0 m c n (Nat.lt_of_succ_lt hn)).2.2,
    sum_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole cc0_scratch0) scM0_1 (Memref.isWhole_whole cc0_scratch1) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1 (outsAt0 m c n (Nat.lt_of_succ_lt hn)).2.2⟩

/-- A row block's last point: one more step, and the output block is the quotient of what that step leaves. -/
theorem at_last (c : Dev nD) (n : ℕ) (hn : n + 1 < cfg0.N) (h0 : ¬(n + 1) % 16 = 0) (h1 : (n + 1) % 16 = 15) :
    (outsAt0 m c (n + 1) hn).2.1
        = accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1
    ∧ (outsAt0 m c (n + 1) hn).2.2
        = sumStep (grid0.coords ⟨n + 1, hn⟩) (iblk m c 0 ⟨n + 1, hn⟩) (iblk m c 1 ⟨n + 1, hn⟩) (iblk m c 3 ⟨n + 1, hn⟩) (iblk m c 4 ⟨n + 1, hn⟩) (iblk m c 5 ⟨n + 1, hn⟩) (outsAt0 m c n (Nat.lt_of_succ_lt hn)).2.2
    ∧ (outsAt0 m c (n + 1) hn).1
        = k0_pay3 (F := Ideal) (outsAt0 m c (n + 1) hn).2.1 (outsAt0 m c (n + 1) hn).2.2 := by
  rw [outsAt0_C m c ⟨n + 1, hn⟩ h0 h1]
  dsimp only
  simp only [Nat.add_sub_cancel]
  have ea := acc_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole cc0_scratch0) scM0_1 (Memref.isWhole_whole cc0_scratch1) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1 (outsAt0 m c n (Nat.lt_of_succ_lt hn)).2.2
  have es := sum_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole cc0_scratch0) scM0_1 (Memref.isWhole_whole cc0_scratch1) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1 (outsAt0 m c n (Nat.lt_of_succ_lt hn)).2.2
  have eo := out_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole cc0_scratch0) scM0_1 (Memref.isWhole_whole cc0_scratch1) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1 (outsAt0 m c n (Nat.lt_of_succ_lt hn)).2.2
  refine ⟨ea, es, eo.trans ?_⟩
  rw [ea, es]

/-! ## The carried buffers, point by point -/

/-- After point n the carried buffers hold, at local row r, the running numerator and denominator of global row
    512 (n / 16) + r after n % 16 + 1 tiles. -/
theorem carried (c : Dev nD) : ∀ (n : ℕ) (hn : n < cfg0.N),
    (∀ r d : Fin 512, ((outsAt0 m c n hn).2.1 : Vec Ideal S512x512 .f32) (ix2 r d)
        = Cert.Geo.accK (Xf m c) (Pa m c) (Va m c) (Ta m c) (rowOf ⟨n, hn⟩ r) d (n % 16 + 1))
    ∧ (∀ r : Fin 512, ((outsAt0 m c n hn).2.2 : Vec Ideal S512x1 .f32) (ix2 r 0)
        = Cert.Geo.sumK (Xf m c) (Pa m c) (Ta m c) (rowOf ⟨n, hn⟩ r) (n % 16 + 1))
  | 0, hn => by
    obtain ⟨ea, es⟩ := at_first m c ⟨0, hn⟩ rfl (fun h => by have h' : (0 : ℕ) % 16 = 15 := h; omega)
    refine ⟨fun r d => ?_, fun r => ?_⟩
    · refine (congrFun ea (ix2 r d)).trans ((accStepAt m c ⟨0, hn⟩ _ r d).trans ?_)
      rw [zeroAcc_apply]
      rfl
    · refine (congrFun es (ix2 r 0)).trans ((sumStepAt m c ⟨0, hn⟩ _ r).trans ?_)
      rw [zeroSum_apply]
      rfl
  | n + 1, hn => by
    have ih := carried c n (Nat.lt_of_succ_lt hn)
    by_cases h0 : (n + 1) % 16 = 0
    · have h1 : ¬(n + 1) % 16 = 15 := by omega
      obtain ⟨ea, es⟩ := at_first m c ⟨n + 1, hn⟩ h0 h1
      refine ⟨fun r d => ?_, fun r => ?_⟩
      · refine (congrFun ea (ix2 r d)).trans ((accStepAt m c ⟨n + 1, hn⟩ _ r d).trans ?_)
        rw [zeroAcc_apply]
        simp only [h0]
        rfl
      · refine (congrFun es (ix2 r 0)).trans ((sumStepAt m c ⟨n + 1, hn⟩ _ r).trans ?_)
        rw [zeroSum_apply]
        simp only [h0]
        rfl
    · have hj : n % 16 + 1 = (n + 1) % 16 := by omega
      have hrow : ∀ r, rowOf ⟨n, Nat.lt_of_succ_lt hn⟩ r = rowOf ⟨n + 1, hn⟩ r := fun r => Fin.ext (by
        show 512 * (n / 16) + r.val = 512 * ((n + 1) / 16) + r.val
        have : n / 16 = (n + 1) / 16 := by omega
        rw [this])
      have hstep : (outsAt0 m c (n + 1) hn).2.1
            = accStep (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1
          ∧ (outsAt0 m c (n + 1) hn).2.2
            = sumStep (grid0.coords ⟨n + 1, hn⟩) (iblk m c 0 ⟨n + 1, hn⟩) (iblk m c 1 ⟨n + 1, hn⟩) (iblk m c 3 ⟨n + 1, hn⟩) (iblk m c 4 ⟨n + 1, hn⟩) (iblk m c 5 ⟨n + 1, hn⟩) (outsAt0 m c n (Nat.lt_of_succ_lt hn)).2.2 := by
        by_cases h1 : (n + 1) % 16 = 15
        · exact ⟨(at_last m c n hn h0 h1).1, (at_last m c n hn h0 h1).2.1⟩
        · exact at_middle m c n hn h0 h1
      obtain ⟨ea, es⟩ := hstep
      refine ⟨fun r d => ?_, fun r => ?_⟩
      · refine (congrFun ea (ix2 r d)).trans ((accStepAt m c ⟨n + 1, hn⟩ _ r d).trans ?_)
        rw [ih.1 r d, hrow r, hj]
        rfl
      · refine (congrFun es (ix2 r 0)).trans ((sumStepAt m c ⟨n + 1, hn⟩ _ r).trans ?_)
        rw [ih.2 r, hrow r, hj]
        rfl

/-! ## The result array -/

/-- The 16384 x 512 result: the tiled arrangement's value at every entry. -/
def G6 (c : Dev nD) : S16384x512.Idx → EReal := fun i =>
  Cert.Geo.outK (Xf m c) (Pa m c) (Va m c) (Ta m c) ⟨(i 0).val, idx2_lt0 i⟩ ⟨(i 1).val, idx2_lt1 i⟩

/-- At a row block's last point the output block holds the result's rows of that block. -/
theorem out_last (c : Dev nD) (t : Fin cfg0.N) (h15 : t.val % 16 = 15) (r d : Fin 512) :
    ((outsAt0 m c t.val t.isLt).1 : Vec Ideal S512x512 .f32) (ix2 r d) = G6 m c (ix2 (rowOf t r) d) := by
  obtain ⟨n, hn⟩ := t
  cases n with
  | zero => exact absurd (show (0 : ℕ) % 16 = 15 from h15) (by decide)
  | succ n =>
    have h15' : (n + 1) % 16 = 15 := h15
    have h0 : ¬(n + 1) % 16 = 0 := by omega
    obtain ⟨_, _, eo⟩ := at_last m c n hn h0 h15'
    refine (congrFun eo (ix2 r d)).trans ((out_apply _ _ r d).trans ?_)
    rw [(carried m c (n + 1) hn).1 r d, (carried m c (n + 1) hn).2 r, show (n + 1) % 16 + 1 = 16 from by omega]
    rfl

/-- A 512 x 512 block that agrees with G, row by row, at the rows of grid point t's row block IS that block of G. -/
theorem blk6_read (t : Fin cfg0.N) (o : Vec Ideal S512x512 .f32) (G : S16384x512.Idx → EReal)
    (h : ∀ r d : Fin 512, o (ix2 r d) = G (ix2 (rowOf t r) d)) :
    o = ((cfg0.win 6).blk t).view.read (Elt Ideal) G := by
  funext j
  obtain ⟨r, d, rfl⟩ : ∃ (r : Fin 512) (d : Fin 512), j = ix2 r d := ⟨j 0, j 1, eq_ix2 j⟩
  rw [View.read_apply, h]
  congr 1
  funext a
  apply Fin.ext
  match a with
  | ⟨0, _⟩ => show 512 * (t.val / 16) + r.val = win0_6.index t 0 * 512 + 1 * r.val; rw [(idx6 t).1]; omega
  | ⟨1, _⟩ => show d.val = win0_6.index t 1 * 512 + 1 * d.val; rw [(idx6 t).2]; omega

/-- What a writing point writes back is its block of the result. -/
theorem flushed6 (c : Dev nD) (t : Fin cfg0.N) (hf : (cfg0.win 6).flush t = true) :
    (dats m 0 c).flushed 6 t = ((cfg0.win 6).blk t).view.read (Elt Ideal) (G6 m c) := by
  have h15 : t.val % 16 = 15 := (flush0_6 t).mp hf
  show (cfg0.win 6).cut (grid0.coords t) ((dats m 0 c).after 6 t) = _
  rw [after0_6]
  exact blk6_read t _ _ (out_last m c t h15)

/-- An entry of the result is in point t's block iff its row and column are in the block's ranges. -/
theorem mem_blk6 (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v14).slice (win0_6.rect t)).set ↔ _
  rw [View.set_slice_whole, Rect.mem_set_unit]
  exact Iff.rfl

/-- Row R of the result is written by the last point of row block R / 512. -/
theorem cover6 (i : S16384x512.Idx) :
    ∃ t : Fin cfg0.N, (cfg0.win 6).flush t = true ∧ i ∈ ((cfg0.win 6).blk t).view.set := by
  have hN : cfg0.N = 512 := N_0
  have hi0 : (i 0).val < 16384 := idx2_lt0 i
  have hi1 : (i 1).val < 512 := idx2_lt1 i
  refine ⟨⟨16 * ((i 0).val / 512) + 15, by omega⟩, (flush0_6 _).mpr (by show (16 * ((i 0).val / 512) + 15) % 16 = 15; omega), ?_⟩
  rw [mem_blk6]
  intro a
  match a with
  | ⟨0, _⟩ =>
    show win0_6.index ⟨16 * ((i 0).val / 512) + 15, _⟩ 0 * 512 ≤ (i 0).val ∧ (i 0).val < win0_6.index ⟨16 * ((i 0).val / 512) + 15, _⟩ 0 * 512 + 512
    rw [(idx6 _).1]
    show (16 * ((i 0).val / 512) + 15) / 16 * 512 ≤ (i 0).val ∧ (i 0).val < (16 * ((i 0).val / 512) + 15) / 16 * 512 + 512
    omega
  | ⟨1, _⟩ =>
    show win0_6.index ⟨16 * ((i 0).val / 512) + 15, _⟩ 1 * 512 ≤ (i 1).val ∧ (i 1).val < win0_6.index ⟨16 * ((i 0).val / 512) + 15, _⟩ 1 * 512 + 512
    rw [(idx6 _).2]
    omega

/-- So the result array ends holding 'G6'. -/
theorem final6 (c : Dev nD) : (dats m 0 c).arrAt 6 cfg0.N = G6 m c :=
  (dats m 0 c).arrAt_eq_of_cover 6 (G6 m c) (fun t hf => flushed6 m c t hf) cover6

/-! ## The last host operation, and the run -/

/-- The result buffer after the final reshape: the result array recast to 8 x 2048 x 512. -/
theorem tail_eq (c : Dev nD) : Pipeline.afterTail₀ cfgs (dats m) 0 (V0 m) [hostOps1] c main_v15
    = shapeCast S8x2048x512 (G6 m c) shapeCasts_S16384x512_S8x2048x512 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.tc.devRef main_v14) = G6 m c :=
    (Pipeline.withArrays_arr spec0 launch0.win.arr_inj c _ _ 6).trans (final6 m c)
  rw [e]
  rfl

/-- The idealized kernel's run: it terminates, the result buffer ends at the recast result array and the four
    arguments end as launched. -/
theorem kernel_run : θ_run defs (onTc (τ := τ) (main (F := Ideal))) ⟨m, fun _ => 0, ρ⟩ (fun r => ∀ c : Dev nD,
      r.2.mem ((c.tc : Thread nD τ).loc main_v15) = shapeCast S8x2048x512 (G6 m c) shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v15 (Pipeline.mem_restRefs_of main_v15 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Pieces

end
-- ==== Proof.RefValue.lean ====
/-
  The reference program's result, entry by entry, is the plain arrangement 'Geo.outR' of the radial-basis
  attention: over the flattened X, its squared row norms plus those of P minus twice their inner products,
  clamped at zero, rooted, negated, divided by |T n| + 0.1 and exponentiated are the weights; each is divided by
  the row's total plus eps, and the normalised weights are contracted with V.
-/
import proofs.«109003_j18339510354278_2_alg».proof.Proof.Gen.ReferenceIdeal.Read
import proofs.«109003_j18339510354278_2_alg».proof.Proof.GeoSpec

set_option maxRecDepth 16384

noncomputable section

namespace Cert.ReferenceIdeal.RefValue

open Idealize.ShloMosaic Idealize.ShloMosaic.ValueIdx
open Cert.ReferenceIdeal Cert.ReferenceIdeal.Read

variable (x0 : (⟨S8x2048x512, .f32⟩ : BufTy).Contents (Elt Ideal)) (x1 x2 : (⟨S4096x512, .f32⟩ : BufTy).Contents (Elt Ideal))
  (x3 : (⟨S4096, .f32⟩ : BufTy).Contents (Elt Ideal))

/-- X flattened to 16384 rows (the program's first reshape). -/
abbrev Xf : Cert.Geo.Arr2 16384 512 := val_main_v0 (F := Ideal) x0

theorem xsq_eq (R : Fin 16384) (n : Fin 4096) : val_main_v7 (F := Ideal) x0 (ix2 R n) = Cert.Geo.xsq (Xf x0) R := by
  rw [val_main_v7_apply, val_main_v3_apply, val_main_v2_apply]
  unfold Cert.Geo.xsq
  refine congrArg₂ (· + ·) rfl (Finset.sum_congr rfl fun k _ => ?_)
  rw [val_main_v1_apply]
  have e : idx_main_v2 (idx_main_v3 (idx_main_v7 (ix2 R n))) k = ix2 R k := funext fun a => Fin.ext (by match a with | ⟨0, _⟩ => rfl | ⟨1, _⟩ => rfl)
  rw [e]
  rfl

theorem psq_eq (R : Fin 16384) (n : Fin 4096) : val_main_v8 (F := Ideal) x1 (ix2 R n) = Cert.Geo.psq x1 n := by
  rw [val_main_v8_apply, val_main_v6_apply, val_main_v5_apply]
  unfold Cert.Geo.psq
  refine congrArg₂ (· + ·) rfl (Finset.sum_congr rfl fun k _ => ?_)
  rw [val_main_v4_apply]
  have e : idx_main_v5 (idx_main_v6 (idx_main_v8 (ix2 R n))) k = ix2 n k := funext fun a => Fin.ext (by match a with | ⟨0, _⟩ => rfl | ⟨1, _⟩ => rfl)
  rw [e]
  rfl

theorem dot_eq (R : Fin 16384) (n : Fin 4096) :
    val_main_v11 (F := Ideal) x0 x1 (ix2 R n) = Cert.Geo.dotp (Xf x0) x1 R n := by
  rw [val_main_v11_apply]
  unfold Cert.Geo.dotp
  refine Finset.sum_congr rfl fun k _ => ?_
  rw [val_main_v10_apply]
  have el : lidx_main_v11 (ix2 R n) k = ix2 R k := funext fun a => Fin.ext (by match a with | ⟨0, _⟩ => rfl | ⟨1, _⟩ => rfl)
  have er : idx_main_v10 (ridx_main_v11 (ix2 R n) k) = ix2 n k := funext fun a => Fin.ext (by match a with | ⟨0, _⟩ => rfl | ⟨1, _⟩ => rfl)
  rw [el, er]

theorem dist_eq (R : Fin 16384) (n : Fin 4096) :
    val_main_v17 (F := Ideal) x0 x1 (ix2 R n) = Cert.Geo.dist (Xf x0) x1 R n := by
  rw [val_main_v17_apply, val_main_v16_apply, val_main_v14_apply, val_main_v9_apply, val_main_v13_apply, val_main_v12_apply,
    val_main_v15_apply, xsq_eq, psq_eq, dot_eq]
  rfl

theorem den_eq (R : Fin 16384) (n : Fin 4096) : val_main_v23 (F := Ideal) x3 (ix2 R n) = Cert.Geo.den x3 n := by
  rw [val_main_v23_apply, val_main_v22_apply, val_main_v21_apply, val_main_v19_apply, val_main_v20_apply]
  have e : idx_main_v22 (idx_main_v23 (ix2 R n)) = ix1 n := funext fun a => Fin.ext (by match a with | ⟨0, _⟩ => rfl)
  rw [e]
  rfl

theorem w_eq (R : Fin 16384) (n : Fin 4096) :
    val_main_v25 (F := Ideal) x0 x1 x3 (ix2 R n) = Cert.Geo.wR (Xf x0) x1 x3 R n := by
  rw [val_main_v25_apply, val_main_v24_apply, val_main_v18_apply, dist_eq, den_eq]
  rfl

theorem norm_eq (R : Fin 16384) (n : Fin 4096) :
    val_main_v30 (F := Ideal) x0 x1 x3 (ix2 R n)
      = Cert.Geo.sumR (Xf x0) x1 x3 R + Ideal.ofBits .f32 0x322BCC77#32 := by
  rw [val_main_v30_apply, val_main_v29_apply, val_main_v27_apply, val_main_v26_apply, val_main_v28_apply]
  unfold Cert.Geo.sumR
  refine congrArg₂ (· + ·) (congrArg₂ (· + ·) rfl (Finset.sum_congr rfl fun k _ => ?_)) rfl
  have e : idx_main_v26 (idx_main_v27 (idx_main_v30 (ix2 R n))) k = ix2 R k := funext fun a => Fin.ext (by match a with | ⟨0, _⟩ => rfl | ⟨1, _⟩ => rfl)
  rw [e, w_eq]

/-- The reference's 16384 x 512 result at (R, d). -/
theorem out_eq (R : Fin 16384) (d : Fin 512) :
    val_main_v32 (F := Ideal) x0 x1 x2 x3 (ix2 R d) = Cert.Geo.outR (Xf x0) x1 x2 x3 R d := by
  rw [val_main_v32_apply]
  unfold Cert.Geo.outR
  refine Finset.sum_congr rfl fun k _ => ?_
  rw [val_main_v31_apply]
  have el : lidx_main_v32 (ix2 R d) k = ix2 R k := funext fun a => Fin.ext (by match a with | ⟨0, _⟩ => rfl | ⟨1, _⟩ => rfl)
  have er : ridx_main_v32 (ix2 R d) k = ix2 k d := funext fun a => Fin.ext (by match a with | ⟨0, _⟩ => rfl | ⟨1, _⟩ => rfl)
  rw [el, er, w_eq, norm_eq]
  rfl

end Cert.ReferenceIdeal.RefValue

end
-- ==== Proof.Finite.lean ====
/-
  The precondition, opened: when 'finite_inputs' holds, every entry of the four argument arrays is a real number.

  The precondition is a conjunction of four 'all |x| < +inf' tests. Each conjunct of an 'and' that is true is true, an
  'all' that is true is true at every entry, and an extended real whose absolute value max x (-x) is below +inf is
  neither +inf nor -inf.
-/
import proofs.«109003_j18339510354278_2_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Finite

open Idealize.ShloMosaic Idealize.ShloMosaic.ValueIdx
open Cert.Pre_finite_inputs

instance : Subsingleton S_.Idx := ⟨fun a b => funext fun d => d.elim0⟩

/-- The pattern 0x7F800000 is +inf. -/
theorem inf_eq : Ideal.ofBits .f32 0x7F800000#32 = ⊤ := by
  simp [Ideal.ofBits, Ideal.ieee]

/-- An extended real whose absolute value compares below +inf is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have h' : Ideal.cmp .olt (max x (-x)) (Ideal.ofBits .f32 0x7F800000#32) = 1#1 := h
  rw [inf_eq] at h'
  induction x using EReal.rec with
  | bot => exact absurd h' (by simp [Ideal.cmp])
  | top => exact absurd h' (by simp [Ideal.cmp])
  | coe r => exact ⟨r, rfl⟩

variable [Facts]
open Facts

/-- Under the precondition every entry of every argument is real. -/
theorem all_real (a0 : FVec Ideal S8x2048x512 .f32) (a1 a2 : FVec Ideal S4096x512 .f32) (a3 : FVec Ideal S4096 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Pre_finite_inputs.Finite

end
-- ==== Proof.lean ====
/-
  The certificate of the radial-basis ("geometric") attention kernel against its jnp reference.

  Both programs compute, for each of the 16384 flattened query rows R and each output column d,
      out R d = sum_n (w R n / (sum_n' w R n' + eps)) * V n d,   w R n = exp (-dist (X_R, P_n) / (|T n| + 0.1)),
  over a codebook of 4096 positions P, values V and temperatures T. The reference does so literally. The kernel walks
  a 32 x 16 grid — row blocks of 512 rows, codebook tiles of 256 entries —, keeps the numerator sum_n w R n * V n d and the
  denominator sum_n w R n in two buffers it carries from tile to tile, multiplies the distance by a precomputed
  -1 / (|T n| + 0.1), and divides once after a row block's last tile; it also reads V through a narrower float format
  and asks for a more precise first matrix product, neither of which changes an extended real.

  * The three frames: the two kernel programs' are their generated frames; the reference has no kernel, and its
    frame is its generated run with the result forgotten.
  * 'preserves': the idealization rewrote nothing, so there is nothing to state.
  * 'algebraic': the kernel's result array is read off the generated frame run — what each control case leaves in the
    carried buffers and in the output block (KPieces), those values entry by entry (KPayload), the blocks as parts of
    whole arrays (KBlocks, KHost), the induction over the grid points and the thirty-two written blocks that tile the
    result (KInv) — and is the tiled arrangement 'Geo.outK'; the reference's generated run, read one operation at a time
    (RefValue), is the plain arrangement 'Geo.outR'; under the precondition every input entry is a real number (Finite),
    and for real inputs the two arrangements are equal (GeoSpec: re-association of finite sums of reals,
    x * (-1 / c) = -x / c, and (sum_n a_n) / D = sum_n (a_n / D) for the real, positive D = sum_n w R n + eps).
    Both programs end with the same reshape of that 16384 x 512 array to 8 x 2048 x 512.
-/
import proofs.«109003_j18339510354278_2_alg».proof.Defs
import proofs.«109003_j18339510354278_2_alg».proof.Proof.Gen.Kernel
import proofs.«109003_j18339510354278_2_alg».proof.Proof.Gen.Kernel.Skeleton
import proofs.«109003_j18339510354278_2_alg».proof.Proof.Gen.Kernel.Launch
import proofs.«109003_j18339510354278_2_alg».proof.Proof.Gen.Kernel.Points
import proofs.«109003_j18339510354278_2_alg».proof.Proof.Gen.Kernel.Frame
import proofs.«109003_j18339510354278_2_alg».proof.Proof.Gen.KernelIdeal
import proofs.«109003_j18339510354278_2_alg».proof.Proof.Gen.KernelIdeal.Skeleton
import proofs.«109003_j18339510354278_2_alg».proof.Proof.Gen.KernelIdeal.Launch
import proofs.«109003_j18339510354278_2_alg».proof.Proof.Gen.KernelIdeal.Points
import proofs.«109003_j18339510354278_2_alg».proof.Proof.Gen.KernelIdeal.Frame
import proofs.«109003_j18339510354278_2_alg».proof.Proof.Gen.ReferenceIdeal
import proofs.«109003_j18339510354278_2_alg».proof.Proof.Gen.Pre_finite_inputs
import proofs.«109003_j18339510354278_2_alg».proof.Proof.Gen.ReferenceIdeal.Run
import proofs.«109003_j18339510354278_2_alg».proof.Proof.Gen.ReferenceIdeal.Read
import proofs.«109003_j18339510354278_2_alg».proof.Proof.GeoSpec
import proofs.«109003_j18339510354278_2_alg».proof.Proof.KInv
import proofs.«109003_j18339510354278_2_alg».proof.Proof.RefValue
import proofs.«109003_j18339510354278_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the reference's 16384 x 512 result, computed from the kernel's argument arrays, is the
    array the kernel's grid leaves: entry by entry the plain and the tiled arrangement of real inputs agree. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v32 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Pieces.G6 m c := by
  funext i
  obtain ⟨R, d, rfl⟩ : ∃ (R : Fin 16384) (d : Fin 512), i = ix2 R d := ⟨i 0, i 1, eq_ix2 i⟩
  rw [Cert.ReferenceIdeal.RefValue.out_eq]
  obtain ⟨h0, h1, h2, h3⟩ := Cert.Pre_finite_inputs.Finite.all_real _ _ _ _ (hpre c)
  have hX : ∀ j, ∃ r : ℝ, Cert.ReferenceIdeal.RefValue.Xf
      (m ((c.tc : Thread Cert.KernelIdeal.nD Cert.KernelIdeal.τ).loc Cert.KernelIdeal.main_arg0)) j = r := fun j => by
    show ∃ r : ℝ, Cert.ReferenceIdeal.Read.val_main_v0 (F := Ideal) _ j = r
    rw [Cert.ReferenceIdeal.Read.val_main_v0_apply]
    exact h0 _
  exact (Cert.Geo.outK_eq_outR _ _ _ _ hX h1 h2 h3 R d).symm

theorem algebraic : Cert.algebraic_KernelIdeal_ReferenceIdeal := by
  intro m ρ m' ρ' hpre hagree
  refine ⟨fun c => shapeCast Cert.KernelIdeal.S8x2048x512 (Cert.KernelIdeal.Pieces.G6 m c)
      Cert.KernelIdeal.Facts₀.shapeCasts_S16384x512_S8x2048x512, Cert.KernelIdeal.Pieces.kernel_run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v33 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [(hagree c).1, (hagree c).2.1, (hagree c).2.2.1, (hagree c).2.2.2]
  unfold Cert.ReferenceIdeal.Read.val_main_v33
  rw [result_eq m hpre c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
